-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x2 .f32) (main_arg5 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x2 : Shape := ⟨2, ![100000, 2]⟩
abbrev S10000x2 : Shape := ⟨2, ![10000, 2]⟩
abbrev S1700000x2 : Shape := ⟨2, ![1700000, 2]⟩
abbrev S1x2 : Shape := ⟨2, ![1, 2]⟩

abbrev nBuf : Space → Nat
  | .hbm => 84
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x2, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x2, .f32⟩
  | .hbm, ⟨75, _⟩ => ⟨S1700000x1, .f32⟩
  | .hbm, ⟨76, _⟩ => ⟨S1700000x2, .f32⟩
  | .hbm, ⟨77, _⟩ => ⟨S1700000x2, .f32⟩
  | .hbm, ⟨78, _⟩ => ⟨S_, .f32⟩
  | .hbm, ⟨79, _⟩ => ⟨S100000x2, .f32⟩
  | .hbm, ⟨80, _⟩ => ⟨S1700000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x2, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S10000x2, .f32⟩
  | .local _ .vmem, ⟨17, _⟩ => ⟨S1x2, .f32⟩
  | .local _ .vmem, ⟨18, _⟩ => ⟨S10000x2, .f32⟩
  | .local _ .vmem, ⟨19, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x2_S10000x2_1_0_0_1_n_n_wf : DotDims.WF S10000x64 S64x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S100000x2.size a
  hwx3_2 : ∀ i : grid3.Coords, EltTy.bits .f32 = 32 ∨ (Rect.block (s := S100000x2) S10000x2.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S100000x2, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x2, .f32⟩
  | .hbm, ⟨115, _⟩ => ⟨S1700000x1, .f32⟩
  | .hbm, ⟨116, _⟩ => ⟨S1700000x2, .f32⟩
  | .hbm, ⟨117, _⟩ => ⟨S1700000x2, .f32⟩
  | .hbm, ⟨118, _⟩ => ⟨S_, .f32⟩
  | .hbm, ⟨119, _⟩ => ⟨S100000x2, .f32⟩
  | .hbm, ⟨120, _⟩ => ⟨S1700000x1, .i32⟩
  | .hbm, ⟨121, _⟩ => ⟨S100000x2, .f32⟩
  | .hbm, ⟨122, _⟩ => ⟨S1x2, .f32⟩
  | .hbm, ⟨123, _⟩ => ⟨S100000x2, .f32⟩
  | .hbm, ⟨124, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run with its result NAMED. The program is four tiled regions among stretches of host
  operations; its frame run ends with every unscoped buffer at the last boundary's contents `W9`, so the result
  buffer (region 3's output array) ends at `W9 … main_v61` and the argument arrays as launched.
-/
import proofs.«165865_j74861279969818_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    last boundary gives it and every argument array as launched. -/
theorem run_main : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.GcnSpec.lean ====
/-
  The two-layer graph convolution as ONE function of the argument arrays, written with the host operations of the
  reference program. `rowFull` / `colFull` are the edge endpoints with one self loop per node appended; `deg` counts
  the edges into each node, `dinv` is deg^(-1/2) where deg > 0 and 0 elsewhere, `norm` the product of the two endpoint
  factors per edge; `agg64` / `agg2` gather a feature row per edge at its source, scale it by the edge's norm and add it
  into the row of its target; `result` is agg2 (relu (agg64 (x · W1) + b1) · W2) + b2.
-/
import proofs.«165865_j74861279969818_1_alg».proof.Proof.Gen.ReferenceIdeal

noncomputable section

namespace Cert.GcnSpec

open Cert.ReferenceIdeal Cert.ReferenceIdeal.Gen Idealize.ShloMosaic Idealize.ShloMosaic.TcCoe Idealize.SL.Sem Idealize.ShloMosaic.StableHlo

variable {F : FTy → Type} [FloatOps F]

/-- The sources of the edges, then one self loop per node. -/
def rowFull (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the edges, then one self loop per node. -/
def colFull (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index counts from the end: v < 0 ? v + 100000 : v. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The number of edges into each node: ones added at the targets into zeros. -/
def deg (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (colFull (F := F) ei)) (broadcastInDim S1700000 ![] bcast_S_S1700000 (constant S_ .f32 0x3F800000#32))

/-- deg^(-1/2) where deg > 0, else 0. -/
def dinv (ei : (⟨S2x1600000, .i32⟩ : BufTy).Contents (Elt F)) : (⟨S100000, .f32⟩ : BufTy).Contents (Elt F) :=
  select (cmpf (F := F) .ogt (deg (F := F) ei) (broadcastInDim S100000 ![] bcast_S_S100000 (constant S_ .f32 0x00000000#32))) (Host.rsqrt (deg (F := F) ei)) (broadcastInDim S100000 ![] bcast_S_S100000 (id (constant S_ .f32 0x00000000#32)))

/-- Per edge, dinv at its source times dinv at its target. -/
def norm (ei : (⟨S2x1600000, .i32⟩ : BufTy).Contents (Elt F)) : (⟨S1700000, .f32⟩ : BufTy).Contents (Elt F) :=
  mulf (Host.gather gather_S100000_S1700000x1_S1700000_n_0_n_n_0_1_1 (dinv (F := F) ei) (broadcastInDim S1700000x1 ![0] bcast_S1700000_S1700000x1_0 (wrap (F := F) (rowFull (F := F) ei))))
    (Host.gather gather_S100000_S1700000x1_S1700000_n_0_n_n_0_1_1 (dinv (F := F) ei) (broadcastInDim S1700000x1 ![0] bcast_S1700000_S1700000x1_0 (wrap (F := F) (colFull (F := F) ei))))

/-- One propagation step on 64 features, from edge data `r` (sources), `cl` (targets), `nr` (norms): the source row
    of each edge, scaled by the edge's norm, added into the target row. -/
def agg64 (r cl : (⟨S1700000, .i32⟩ : BufTy).Contents (Elt F)) (nr : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 cl)
    (mulf (Host.gather gather_S100000x64_S1700000x1_S1700000x64_1_0_n_n_0_1_164 h (broadcastInDim S1700000x1 ![0] bcast_S1700000_S1700000x1_0 (wrap (F := F) r)))
      (broadcastInDim S1700000x64 ![0, 1] bcast_S1700000x1_S1700000x64_0_1 (broadcastInDim S1700000x1 ![0] bcast_S1700000_S1700000x1_0 nr)))

/-- The same step on 2 features. -/
def agg2 (r cl : (⟨S1700000, .i32⟩ : BufTy).Contents (Elt F)) (nr : (⟨S1700000, .f32⟩ : BufTy).Contents (Elt F))
    (h : (⟨S100000x2, .f32⟩ : BufTy).Contents (Elt F)) : (⟨S100000x2, .f32⟩ : BufTy).Contents (Elt F) :=
  Host.scatterAdd scatter_S100000x2_S1700000x1_S1700000x2_1_0_0_1 (broadcastInDim S100000x2 ![] bcast_S_S100000x2 (constant S_ .f32 0x00000000#32)) (broadcastInDim S1700000x1 ![0] bcast_S1700000_S1700000x1_0 cl)
    (mulf (Host.gather gather_S100000x2_S1700000x1_S1700000x2_1_0_n_n_0_1_12 h (broadcastInDim S1700000x1 ![0] bcast_S1700000_S1700000x1_0 (wrap (F := F) r)))
      (broadcastInDim S1700000x2 ![0, 1] bcast_S1700000x1_S1700000x2_0_1 (broadcastInDim S1700000x1 ![0] bcast_S1700000_S1700000x1_0 nr)))

/-- The first layer's output: relu (agg64 (x · W1) + b1), the bias row `b1r : [1, 64]` broadcast over the nodes. -/
def hidden (r cl : (⟨S1700000, .i32⟩ : BufTy).Contents (Elt F)) (nr : (⟨S1700000, .f32⟩ : BufTy).Contents (Elt F))
    (x : (⟨S100000x64, .f32⟩ : BufTy).Contents (Elt F)) (w1 : (⟨S64x64, .f32⟩ : BufTy).Contents (Elt F))
    (b1r : (⟨S1x64, .f32⟩ : BufTy).Contents (Elt F)) : (⟨S100000x64, .f32⟩ : BufTy).Contents (Elt F) :=
  maximumf (addf (agg64 (F := F) r cl nr (Host.dotGeneral dot_S100000x64_S64x64_S100000x64_1_0_0_1_n_n none x w1)) (broadcastInDim S100000x64 ![0, 1] bcast_S1x64_S100000x64_0_1 b1r))
    (broadcastInDim S100000x64 ![] bcast_S_S100000x64 (constant S_ .f32 0x00000000#32))

/-- The network's output: agg2 (hidden · W2) + b2, the bias row `b2r : [1, 2]` broadcast over the nodes. -/
def output (r cl : (⟨S1700000, .i32⟩ : BufTy).Contents (Elt F)) (nr : (⟨S1700000, .f32⟩ : BufTy).Contents (Elt F))
    (hd : (⟨S100000x64, .f32⟩ : BufTy).Contents (Elt F)) (w2 : (⟨S64x2, .f32⟩ : BufTy).Contents (Elt F))
    (b2r : (⟨S1x2, .f32⟩ : BufTy).Contents (Elt F)) : (⟨S100000x2, .f32⟩ : BufTy).Contents (Elt F) :=
  addf (agg2 (F := F) r cl nr (Host.dotGeneral dot_S100000x64_S64x2_S100000x2_1_0_0_1_n_n none hd w2)) (broadcastInDim S100000x2 ![0, 1] bcast_S1x2_S100000x2_0_1 b2r)

/-- The whole network as a function of the six arguments. -/
def result (x : (⟨S100000x64, .f32⟩ : BufTy).Contents (Elt F)) (ei : (⟨S2x1600000, .i32⟩ : BufTy).Contents (Elt F))
    (w1 : (⟨S64x64, .f32⟩ : BufTy).Contents (Elt F)) (b1 : (⟨S64, .f32⟩ : BufTy).Contents (Elt F))
    (w2 : (⟨S64x2, .f32⟩ : BufTy).Contents (Elt F)) (b2 : (⟨S2, .f32⟩ : BufTy).Contents (Elt F)) : (⟨S100000x2, .f32⟩ : BufTy).Contents (Elt F) :=
  output (F := F) (rowFull (F := F) ei) (colFull (F := F) ei) (norm (F := F) ei)
    (hidden (F := F) (rowFull (F := F) ei) (colFull (F := F) ei) (norm (F := F) ei) x w1 (broadcastInDim S1x64 ![1] bcast_S64_S1x64_1 b1))
    w2 (broadcastInDim S1x2 ![1] bcast_S2_S1x2_1 b2)

end Cert.GcnSpec

end
-- ==== Proof.KernelHost.lean ====
/-
  The host stretches of the idealized kernel's @main, read as values. Between the tiled regions the program computes,
  with host operations, the edge lists with self loops, the per-edge norms, and after each matrix product the
  gather / scale / scatter-add step; here each boundary's buffers are read back as the network's functions
  (`GcnSpec`) of the buffers at the boundary before, down to the launch memory. A region changes its own arrays only,
  so every other buffer passes through it (`V4_kept`, `V6_kept`, `V7_kept`).
-/
import proofs.«165865_j74861279969818_1_alg».proof.Proof.Gen.KernelIdeal.Frame
import proofs.«165865_j74861279969818_1_alg».proof.Proof.GcnSpec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen Idealize.ShloMosaic Idealize.ShloMosaic.ValueIdx Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Region 0's entry, from the launch memory -/

set_option maxHeartbeats 4000000 in
/-- No host operation writes an argument. -/
theorem V3_arg0 : V3 m ρ c main_arg0 = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp <;> rfl

set_option maxHeartbeats 4000000 in
/-- No host operation writes an argument. -/
theorem V3_arg2 : V3 m ρ c main_arg2 = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp <;> rfl

set_option maxHeartbeats 4000000 in
/-- No host operation writes an argument. -/
theorem V3_arg3 : V3 m ρ c main_arg3 = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp <;> rfl

set_option maxHeartbeats 4000000 in
/-- No host operation writes an argument. -/
theorem V3_arg4 : V3 m ρ c main_arg4 = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp <;> rfl

set_option maxHeartbeats 4000000 in
/-- No host operation writes an argument. -/
theorem V3_arg5 : V3 m ρ c main_arg5 = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results_simp <;> rfl

set_option maxHeartbeats 4000000 in
/-- The sources with the self loops. -/
theorem V3_v5 : V3 m ρ c main_v5 = Cert.GcnSpec.rowFull (F := F) (m ((c : Thread nD τ).loc main_arg1)) := by
  show StableHlo.after hostOps0_2 (StableHlo.after hostOps0_1 (StableHlo.after hostOps0 (W0 m ρ c))) (Proc.devRef .tc main_v5) = _
  simp only [hostOps0_2, hostOps0_1, hostOps0]
  after_results_simp <;> rfl

set_option maxHeartbeats 4000000 in
/-- The targets with the self loops. -/
theorem V3_v6 : V3 m ρ c main_v6 = Cert.GcnSpec.colFull (F := F) (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp <;> rfl

set_option maxHeartbeats 4000000 in
/-- The per-edge norms. -/
theorem V3_v29 : V3 m ρ c main_v29 = Cert.GcnSpec.norm (F := F) (m ((c : Thread nD τ).loc main_arg1)) := by
  show StableHlo.after hostOps0_2 (StableHlo.after hostOps0_1 (StableHlo.after hostOps0 (W0 m ρ c))) (Proc.devRef .tc main_v29) = _
  simp only [hostOps0_2, hostOps0_1, hostOps0]
  after_results_simp <;> rfl

/-! ## Through the regions: a buffer that is none of a region's arrays keeps its contents -/

theorem V4_kept (b : Ref sig .tc) (hb : ∀ w, Pipeline.arrRef spec0 w ≠ b) : V4 m ρ c b = V3 m ρ c b := W4_of_ne m ρ c b hb
theorem V6_kept (b : Ref sig .tc) (hb : ∀ w, Pipeline.arrRef spec1 w ≠ b) : V6 m ρ c b = V5 m ρ c b := W6_of_ne m ρ c b hb
theorem V7_kept (b : Ref sig .tc) (hb : ∀ w, Pipeline.arrRef spec2 w ≠ b) : V7 m ρ c b = V6 m ρ c b := W7_of_ne m ρ c b hb

/-! ## Region 1's entry, from region 0's exit -/

set_option maxHeartbeats 4000000 in
/-- The first propagation step, of region 0's product. -/
theorem V5_v43 : V5 m ρ c main_v43
    = Cert.GcnSpec.agg64 (F := F) (V4 m ρ c main_v5) (V4 m ρ c main_v6) (V4 m ρ c main_v29) (V4 m ρ c main_v30) := by
  show StableHlo.after hostOps1 (W4 m ρ c) (Proc.devRef .tc main_v43) = _
  simp only [hostOps1]
  after_results_simp <;> rfl

set_option maxHeartbeats 4000000 in
/-- The first bias as a row. -/
theorem V5_v44 : V5 m ρ c main_v44 = shapeCast S1x64 (V4 m ρ c main_arg3) shapeCasts_S64_S1x64 := by
  show StableHlo.after hostOps1 (W4 m ρ c) (Proc.devRef .tc main_v44) = _
  simp only [hostOps1]
  after_results_simp <;> rfl

set_option maxHeartbeats 4000000 in
theorem V5_v5 : V5 m ρ c main_v5 = V4 m ρ c main_v5 := by
  show StableHlo.after hostOps1 (W4 m ρ c) (Proc.devRef .tc main_v5) = _
  simp only [hostOps1]
  after_results_simp <;> rfl

set_option maxHeartbeats 4000000 in
theorem V5_v6 : V5 m ρ c main_v6 = V4 m ρ c main_v6 := by
  show StableHlo.after hostOps1 (W4 m ρ c) (Proc.devRef .tc main_v6) = _
  simp only [hostOps1]
  after_results_simp <;> rfl

set_option maxHeartbeats 4000000 in
theorem V5_v29 : V5 m ρ c main_v29 = V4 m ρ c main_v29 := by
  show StableHlo.after hostOps1 (W4 m ρ c) (Proc.devRef .tc main_v29) = _
  simp only [hostOps1]
  after_results_simp <;> rfl

set_option maxHeartbeats 4000000 in
theorem V5_arg4 : V5 m ρ c main_arg4 = V4 m ρ c main_arg4 := by
  show StableHlo.after hostOps1 (W4 m ρ c) (Proc.devRef .tc main_arg4) = _
  simp only [hostOps1]
  after_results_simp <;> rfl

set_option maxHeartbeats 4000000 in
theorem V5_arg5 : V5 m ρ c main_arg5 = V4 m ρ c main_arg5 := by
  show StableHlo.after hostOps1 (W4 m ρ c) (Proc.devRef .tc main_arg5) = _
  simp only [hostOps1]
  after_results_simp <;> rfl

/-! ## Region 3's entry, from region 2's exit -/

set_option maxHeartbeats 4000000 in
/-- The second propagation step, of region 2's product. -/
theorem V8_v59 : V8 m ρ c main_v59
    = Cert.GcnSpec.agg2 (F := F) (V7 m ρ c main_v5) (V7 m ρ c main_v6) (V7 m ρ c main_v29) (V7 m ρ c main_v46) := by
  show StableHlo.after hostOps3 (W7 m ρ c) (Proc.devRef .tc main_v59) = _
  simp only [hostOps3]
  after_results_simp <;> rfl

set_option maxHeartbeats 4000000 in
/-- The second bias as a row. -/
theorem V8_v60 : V8 m ρ c main_v60 = shapeCast S1x2 (V7 m ρ c main_arg5) shapeCasts_S2_S1x2 := by
  show StableHlo.after hostOps3 (W7 m ρ c) (Proc.devRef .tc main_v60) = _
  simp only [hostOps3]
  after_results_simp <;> rfl

/-! ## A vector reshaped to one row is the vector broadcast along a new leading axis -/

theorem row64 (b : (⟨S64, .f32⟩ : BufTy).Contents (Elt F)) :
    shapeCast S1x64 b shapeCasts_S64_S1x64
      = broadcastInDim Cert.ReferenceIdeal.S1x64 ![1] Cert.ReferenceIdeal.Gen.bcast_S64_S1x64_1 b := by
  funext i
  obtain ⟨u, j, rfl⟩ : ∃ (u : Fin 1) (j : Fin 64), i = ix2 u j := ⟨i 0, i 1, eq_ix2 i⟩
  refine (shapeCast_a_1a_apply b shapeCasts_S64_S1x64 u j).trans ?_
  exact (broadcastInDim_apply _ Cert.ReferenceIdeal.Gen.bcast_S64_S1x64_1 b (ix2 u j) (ix1 j) (fun a => match a with
    | ⟨0, _⟩ => by show j.val = if (64 : Nat) = 1 then 0 else j.val; rw [if_neg (by decide)])).symm

theorem row2 (b : (⟨S2, .f32⟩ : BufTy).Contents (Elt F)) :
    shapeCast S1x2 b shapeCasts_S2_S1x2
      = broadcastInDim Cert.ReferenceIdeal.S1x2 ![1] Cert.ReferenceIdeal.Gen.bcast_S2_S1x2_1 b := by
  funext i
  obtain ⟨u, j, rfl⟩ : ∃ (u : Fin 1) (j : Fin 2), i = ix2 u j := ⟨i 0, i 1, eq_ix2 i⟩
  refine (shapeCast_a_1a_apply b shapeCasts_S2_S1x2 u j).trans ?_
  exact (broadcastInDim_apply _ Cert.ReferenceIdeal.Gen.bcast_S2_S1x2_1 b (ix2 u j) (ix1 j) (fun a => match a with
    | ⟨0, _⟩ => by show j.val = if (2 : Nat) = 1 then 0 else j.val; rw [if_neg (by decide)])).symm

end Cert.KernelIdeal.HostValue

end
-- ==== Proof.RegionMatmul.lean ====
import proofs.«165865_j74861279969818_1_alg».proof.Proof.Gen.KernelIdeal.Frame
import proofs.«165865_j74861279969818_1_alg».proof.Proof.Gen.ReferenceIdeal
import Idealize.ShloMosaic.Lib.Pipeline.Value
import Idealize.ShloMosaic.Lib.ValueIdx
import Idealize.ShloMosaic.PureOps.Ideal.Laws

set_option maxRecDepth 16384

/-! # The two matrix-product regions, as whole arrays

Region 0 computes `x · w₁` and region 2 computes `h · w₂`, each over ten blocks of 10000 rows. For the buffer contents `V`
at a region's entry, the region's output array after its last point is the whole-array `dot_general` of the two operand
arrays read off `V`: per region, the body's payload at an element is the sum over the contracted axis of the operands'
products; what a point writes back is its block of that sum over the whole arrays; the ten blocks cover every row; and the
host's `dot_general` at an index is the same sum. -/

noncomputable section

namespace Cert.KernelIdeal.RegionValue

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## Region 0: the rows' blocks of `x · w` -/

/-- The body's contraction: one contracted axis (of extent 64), the left operand's rows and the right operand's columns kept. -/
abbrev D0 := dot_S10000x64_S64x64_S10000x64_1_0_0_1_n_n

theorem lhs0_0 (i : S10000x64.Idx) (q : D0.contr.Idx) : (D0.lhsIdx i q 0).val = (i 0).val := by
  unfold DotDims.lhsIdx
  rw [dif_neg (show ¬(0 : Fin S10000x64.rank) ∈ D0.lhsBatch by decide), dif_pos (show (0 : Fin S10000x64.rank) ∈ D0.lhsNonContracting by decide)]
  rfl
theorem lhs0_1 (i : S10000x64.Idx) (q : D0.contr.Idx) : (D0.lhsIdx i q 1).val = (q ⟨0, by decide⟩).val :=
  D0.lhsIdx_val_of_single rfl i q
theorem rhs0_0 (i : S10000x64.Idx) (q : D0.contr.Idx) : (D0.rhsIdx i q 0).val = (q ⟨0, by decide⟩).val :=
  D0.rhsIdx_val_of_single rfl i q
theorem rhs0_1 (i : S10000x64.Idx) (q : D0.contr.Idx) : (D0.rhsIdx i q 1).val = (i 1).val := by
  unfold DotDims.rhsIdx
  rw [dif_neg (show ¬(1 : Fin S64x64.rank) ∈ D0.rhsBatch by decide), dif_pos (show (1 : Fin S64x64.rank) ∈ D0.rhsNonContracting by decide)]
  rfl

/-- The body's payload at an element: at the ideal values the narrowing to bf16 is the identity and the product into
    the zero accumulator is the plain sum, over the contracted axis, of the operands' products. -/
theorem pay0_apply (x0 : Vec Ideal S10000x64 .f32) (x1 : Vec Ideal S64x64 .f32) (j : S10000x64.Idx) :
    k0_pay1 (F := Ideal) x0 x1 j
      = ∑ k : Fin 64, x0 (ValueIdx.ix2 (n0 := 10000) (n1 := 64) (j 0) k) * x1 (ValueIdx.ix2 (n0 := 64) (n1 := 64) k (j 1)) := by
  unfold k0_pay1
  refine (Ideal.matmul_constant_zero_apply D0 none _ _ _).trans ?_
  rw [← Equiv.sum_comp (ValueIdx.contrEquiv1 D0 64 rfl rfl).symm]
  refine Finset.sum_congr rfl fun k _ => ?_
  have hk := ValueIdx.contrEquiv1_symm_val D0 64 rfl rfl k
  have el : D0.lhsIdx j ((ValueIdx.contrEquiv1 D0 64 rfl rfl).symm k) = ValueIdx.ix2 (n0 := 10000) (n1 := 64) (j 0) k :=
    funext fun a => Fin.ext (by
      match a with
      | ⟨0, _⟩ => exact lhs0_0 _ _
      | ⟨1, _⟩ => exact (lhs0_1 _ _).trans hk)
  have er : D0.rhsIdx j ((ValueIdx.contrEquiv1 D0 64 rfl rfl).symm k) = ValueIdx.ix2 (n0 := 64) (n1 := 64) k (j 1) :=
    funext fun a => Fin.ext (by
      match a with
      | ⟨0, _⟩ => exact (rhs0_0 _ _).trans hk
      | ⟨1, _⟩ => exact rhs0_1 _ _)
  show x0 (D0.lhsIdx j _) * x1 (D0.rhsIdx j _) = _
  rw [el, er]

/-- What the output array ends holding: row `i 0` of the left array against column `i 1` of the right one. -/
abbrev G0 (a0 : S100000x64.Idx → Elt Ideal .f32) (a1 : S64x64.Idx → Elt Ideal .f32) : S100000x64.Idx → Elt Ideal .f32 :=
  fun i => ∑ k : Fin 64, a0 (ValueIdx.ix2 (n0 := 100000) (n1 := 64) (i 0) k) * a1 (ValueIdx.ix2 (n0 := 64) (n1 := 64) k (i 1))

/-- The printed index maps, decided over the grid: the left operand's block moves with the output's along the rows,
    the right operand is the whole array at every point, and point `t` writes row block `t`. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- A block of `G0`: the sum over the contracted axis read through the operands' blocks at point `t` is `G0` at the
    output block's index, the left block moving with the output's along the rows and the right operand whole. -/
theorem blk0_sum (a0 : S100000x64.Idx → Elt Ideal .f32) (a1 : S64x64.Idx → Elt Ideal .f32) (t : Fin cfg0.N) (j : S10000x64.Idx) :
    ∑ k : Fin 64, a0 (((cfg0.win 0).blk t).view.emb (ValueIdx.ix2 (n0 := 10000) (n1 := 64) (j 0) k))
        * a1 (((cfg0.win 1).blk t).view.emb (ValueIdx.ix2 (n0 := 64) (n1 := 64) k (j 1)))
      = G0 a0 a1 (((cfg0.win 2).blk t).view.emb j) := by
  obtain ⟨e0, e1, e2, e3, e4, e5⟩ := idx_facts0 t
  refine Finset.sum_congr rfl fun k _ => ?_
  have h0 : ((cfg0.win 0).blk t).view.emb (ValueIdx.ix2 (n0 := 10000) (n1 := 64) (j 0) k)
      = ValueIdx.ix2 (n0 := 100000) (n1 := 64) ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (ValueIdx.ix2 (n0 := 64) (n1 := 64) k (j 1))
      = ValueIdx.ix2 (n0 := 64) (n1 := 64) k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- What point `t` writes back is block `t` of `G0` of the two operand arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x64) hz, View.ld_unit_zero (S := S64x64) hz]
  funext j
  show k0_pay1 (F := Ideal) (iblk0 V c 0 t) (iblk0 V c 1 t) j = _
  refine (pay0_apply _ _ j).trans ?_
  exact blk0_sum (V c main_arg0) (V c main_arg2) t j

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every index of the output array is in some point's block: row `r` is in the block of point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < grid0.N := by rw [N_0]; omega
  obtain ⟨e0, e1, e2, e3, e4, e5⟩ := idx_facts0 ⟨(i 0).val / 10000, hN⟩
  have q0 : win0_2.index (⟨(i 0).val / 10000, hN⟩ : Fin grid0.N) (0 : Fin 2) = (i 0).val / 10000 := e4
  refine ⟨⟨(i 0).val / 10000, hN⟩, flush0_2 _, ?_⟩
  rw [mem_blk0]
  intro a
  match a with
  | ⟨0, _⟩ =>
    show win0_2.index (⟨(i 0).val / 10000, hN⟩ : Fin grid0.N) (0 : Fin 2) * 10000 ≤ (i 0).val ∧ (i 0).val < win0_2.index (⟨(i 0).val / 10000, hN⟩ : Fin grid0.N) (0 : Fin 2) * 10000 + 10000
    omega
  | ⟨1, _⟩ =>
    show win0_2.index (⟨(i 0).val / 10000, hN⟩ : Fin grid0.N) (1 : Fin 2) * 64 ≤ (i 1).val ∧ (i 1).val < win0_2.index (⟨(i 0).val / 10000, hN⟩ : Fin grid0.N) (1 : Fin 2) * 64 + 64
    omega

/-- The output array after the region: `G0` of the two operand arrays, whole. -/
theorem arrAt0_eq (V : (c : Dev nD) → (b : Ref sig .tc) → Buf (Elt Ideal) ((c : Thread nD τ).loc b)) (c : Dev nD) :
    (dat0 (F := Ideal) V c).arrAt 2 cfg0.N = G0 (V c main_arg0) (V c main_arg2) :=
  (dat0 (F := Ideal) V c).arrAt_eq_of_cover 2 _ (fun t _ => flushed0_eq V c t) cover0

/-! ## The host's `dot_general` over the whole arrays of region 0, at an index -/

/-- The host's contraction: the same axes over the whole arrays. -/
abbrev H0 := Cert.ReferenceIdeal.dot_S100000x64_S64x64_S100000x64_1_0_0_1_n_n

theorem hlhs0_0 (i : Cert.ReferenceIdeal.S100000x64.Idx) (q : H0.contr.Idx) : (H0.lhsIdx i q 0).val = (i 0).val := by
  unfold DotDims.lhsIdx
  rw [dif_neg (show ¬(0 : Fin Cert.ReferenceIdeal.S100000x64.rank) ∈ H0.lhsBatch by decide), dif_pos (show (0 : Fin Cert.ReferenceIdeal.S100000x64.rank) ∈ H0.lhsNonContracting by decide)]
  rfl
theorem hlhs0_1 (i : Cert.ReferenceIdeal.S100000x64.Idx) (q : H0.contr.Idx) : (H0.lhsIdx i q 1).val = (q ⟨0, by decide⟩).val :=
  H0.lhsIdx_val_of_single rfl i q
theorem hrhs0_0 (i : Cert.ReferenceIdeal.S100000x64.Idx) (q : H0.contr.Idx) : (H0.rhsIdx i q 0).val = (q ⟨0, by decide⟩).val :=
  H0.rhsIdx_val_of_single rfl i q
theorem hrhs0_1 (i : Cert.ReferenceIdeal.S100000x64.Idx) (q : H0.contr.Idx) : (H0.rhsIdx i q 1).val = (i 1).val := by
  unfold DotDims.rhsIdx
  rw [dif_neg (show ¬(1 : Fin Cert.ReferenceIdeal.S64x64.rank) ∈ H0.rhsBatch by decide), dif_pos (show (1 : Fin Cert.ReferenceIdeal.S64x64.rank) ∈ H0.rhsNonContracting by decide)]
  rfl

/-- At the ideal values the host's `dot_general` at an index is the sum over the contracted axis of the products:
    `G0` of its operands. -/
theorem host0_apply (x0 : (⟨Cert.ReferenceIdeal.S100000x64, .f32⟩ : BufTy).Contents (Elt Ideal)) (x1 : (⟨Cert.ReferenceIdeal.S64x64, .f32⟩ : BufTy).Contents (Elt Ideal)) (i : Cert.ReferenceIdeal.S100000x64.Idx) :
    Host.dotGeneral (F := Ideal) (φ₁ := .f32) (φ₂ := .f32) H0 none x0 x1 i
      = ∑ k : Fin 64, x0 (ValueIdx.ix2 (n0 := 100000) (n1 := 64) (i 0) k) * x1 (ValueIdx.ix2 (n0 := 64) (n1 := 64) k (i 1)) := by
  simp only [Host.dotGeneral]
  rw [Ideal.dotGeneral_apply, ← Equiv.sum_comp (ValueIdx.contrEquiv1 H0 64 rfl rfl).symm]
  refine Finset.sum_congr rfl fun k _ => ?_
  have hk := ValueIdx.contrEquiv1_symm_val H0 64 rfl rfl k
  have el : H0.lhsIdx i ((ValueIdx.contrEquiv1 H0 64 rfl rfl).symm k) = ValueIdx.ix2 (n0 := 100000) (n1 := 64) (i 0) k :=
    funext fun a => Fin.ext (by
      match a with
      | ⟨0, _⟩ => exact hlhs0_0 _ _
      | ⟨1, _⟩ => exact (hlhs0_1 _ _).trans hk)
  have er : H0.rhsIdx i ((ValueIdx.contrEquiv1 H0 64 rfl rfl).symm k) = ValueIdx.ix2 (n0 := 64) (n1 := 64) k (i 1) :=
    funext fun a => Fin.ext (by
      match a with
      | ⟨0, _⟩ => exact (hrhs0_0 _ _).trans hk
      | ⟨1, _⟩ => exact hrhs0_1 _ _)
  rw [el, er]

/-- THE OUTPUT ARRAY of region 0 after the region is the host's `dot_general` of the two operand arrays as the region
    finds them. -/
theorem final0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x64_S64x64_S100000x64_1_0_0_1_n_n none (V c main_arg0) (V c main_arg2) := by
  rw [arrAt0_eq]
  funext i
  exact (host0_apply (V c main_arg0) (V c main_arg2) i).symm

/-! ## Region 2: the rows' blocks of `x · w` -/

/-- The body's contraction: one contracted axis (of extent 64), the left operand's rows and the right operand's columns kept. -/
abbrev D2 := dot_S10000x64_S64x2_S10000x2_1_0_0_1_n_n

theorem lhs2_0 (i : S10000x2.Idx) (q : D2.contr.Idx) : (D2.lhsIdx i q 0).val = (i 0).val := by
  unfold DotDims.lhsIdx
  rw [dif_neg (show ¬(0 : Fin S10000x64.rank) ∈ D2.lhsBatch by decide), dif_pos (show (0 : Fin S10000x64.rank) ∈ D2.lhsNonContracting by decide)]
  rfl
theorem lhs2_1 (i : S10000x2.Idx) (q : D2.contr.Idx) : (D2.lhsIdx i q 1).val = (q ⟨0, by decide⟩).val :=
  D2.lhsIdx_val_of_single rfl i q
theorem rhs2_0 (i : S10000x2.Idx) (q : D2.contr.Idx) : (D2.rhsIdx i q 0).val = (q ⟨0, by decide⟩).val :=
  D2.rhsIdx_val_of_single rfl i q
theorem rhs2_1 (i : S10000x2.Idx) (q : D2.contr.Idx) : (D2.rhsIdx i q 1).val = (i 1).val := by
  unfold DotDims.rhsIdx
  rw [dif_neg (show ¬(1 : Fin S64x2.rank) ∈ D2.rhsBatch by decide), dif_pos (show (1 : Fin S64x2.rank) ∈ D2.rhsNonContracting by decide)]
  rfl

/-- The body's payload at an element: the cast to the same shape is the identity, at the ideal values the narrowing to bf16 is the identity and the product into
    the zero accumulator is the plain sum, over the contracted axis, of the operands' products. -/
theorem pay2_apply (x0 : Vec Ideal S10000x64 .f32) (x1 : Vec Ideal S64x2 .f32) (j : S10000x2.Idx) :
    k2_pay1 (F := Ideal) x0 x1 j
      = ∑ k : Fin 64, x0 (ValueIdx.ix2 (n0 := 10000) (n1 := 64) (j 0) k) * x1 (ValueIdx.ix2 (n0 := 64) (n1 := 2) k (j 1)) := by
  unfold k2_pay1
  rw [shapeCast_self]
  refine (Ideal.matmul_constant_zero_apply D2 none _ _ _).trans ?_
  rw [← Equiv.sum_comp (ValueIdx.contrEquiv1 D2 64 rfl rfl).symm]
  refine Finset.sum_congr rfl fun k _ => ?_
  have hk := ValueIdx.contrEquiv1_symm_val D2 64 rfl rfl k
  have el : D2.lhsIdx j ((ValueIdx.contrEquiv1 D2 64 rfl rfl).symm k) = ValueIdx.ix2 (n0 := 10000) (n1 := 64) (j 0) k :=
    funext fun a => Fin.ext (by
      match a with
      | ⟨0, _⟩ => exact lhs2_0 _ _
      | ⟨1, _⟩ => exact (lhs2_1 _ _).trans hk)
  have er : D2.rhsIdx j ((ValueIdx.contrEquiv1 D2 64 rfl rfl).symm k) = ValueIdx.ix2 (n0 := 64) (n1 := 2) k (j 1) :=
    funext fun a => Fin.ext (by
      match a with
      | ⟨0, _⟩ => exact (rhs2_0 _ _).trans hk
      | ⟨1, _⟩ => exact rhs2_1 _ _)
  show x0 (D2.lhsIdx j _) * x1 (D2.rhsIdx j _) = _
  rw [el, er]

/-- What the output array ends holding: row `i 0` of the left array against column `i 1` of the right one. -/
abbrev G2 (a0 : S100000x64.Idx → Elt Ideal .f32) (a1 : S64x2.Idx → Elt Ideal .f32) : S100000x2.Idx → Elt Ideal .f32 :=
  fun i => ∑ k : Fin 64, a0 (ValueIdx.ix2 (n0 := 100000) (n1 := 64) (i 0) k) * a1 (ValueIdx.ix2 (n0 := 64) (n1 := 2) k (i 1))

/-- The printed index maps, decided over the grid: the left operand's block moves with the output's along the rows,
    the right operand is the whole array at every point, and point `t` writes row block `t`. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- A block of `G2`: the sum over the contracted axis read through the operands' blocks at point `t` is `G2` at the
    output block's index, the left block moving with the output's along the rows and the right operand whole. -/
theorem blk2_sum (a0 : S100000x64.Idx → Elt Ideal .f32) (a1 : S64x2.Idx → Elt Ideal .f32) (t : Fin cfg2.N) (j : S10000x2.Idx) :
    ∑ k : Fin 64, a0 (((cfg2.win 0).blk t).view.emb (ValueIdx.ix2 (n0 := 10000) (n1 := 64) (j 0) k))
        * a1 (((cfg2.win 1).blk t).view.emb (ValueIdx.ix2 (n0 := 64) (n1 := 2) k (j 1)))
      = G2 a0 a1 (((cfg2.win 2).blk t).view.emb j) := by
  obtain ⟨e0, e1, e2, e3, e4, e5⟩ := idx_facts2 t
  refine Finset.sum_congr rfl fun k _ => ?_
  have h0 : ((cfg2.win 0).blk t).view.emb (ValueIdx.ix2 (n0 := 10000) (n1 := 64) (j 0) k)
      = ValueIdx.ix2 (n0 := 100000) (n1 := 64) ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (ValueIdx.ix2 (n0 := 64) (n1 := 2) k (j 1))
      = ValueIdx.ix2 (n0 := 64) (n1 := 2) k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 2 + 1 * (j 1).val = win2_2.index t (1 : Fin 2) * 2 + 1 * (j 1).val; omega
  rw [h0, h1]

/-- What point `t` writes back is block `t` of `G2` of the two operand arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (G2 (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S10000x64) hz, View.ld_unit_zero (S := S64x2) hz]
  funext j
  show k2_pay1 (F := Ideal) (iblk2 V c 0 t) (iblk2 V c 1 t) j = _
  refine (pay2_apply _ _ j).trans ?_
  exact blk2_sum (V c main_v45) (V c main_arg4) t j

/-- An index of the array is in point `t`'s block iff each coordinate is in the block's range on its axis. -/
theorem mem_blk2 (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v46).slice (win2_2.rect t)).set ↔ _
  rw [View.set_slice_whole, Rect.mem_set_unit]
  exact Iff.rfl

/-- Every index of the output array is in some point's block: row `r` is in the block of point `r / 10000`. -/
theorem cover2 (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : (i 0).val / 10000 < grid2.N := by rw [N_2]; omega
  obtain ⟨e0, e1, e2, e3, e4, e5⟩ := idx_facts2 ⟨(i 0).val / 10000, hN⟩
  have q0 : win2_2.index (⟨(i 0).val / 10000, hN⟩ : Fin grid2.N) (0 : Fin 2) = (i 0).val / 10000 := e4
  refine ⟨⟨(i 0).val / 10000, hN⟩, flush2_2 _, ?_⟩
  rw [mem_blk2]
  intro a
  match a with
  | ⟨0, _⟩ =>
    show win2_2.index (⟨(i 0).val / 10000, hN⟩ : Fin grid2.N) (0 : Fin 2) * 10000 ≤ (i 0).val ∧ (i 0).val < win2_2.index (⟨(i 0).val / 10000, hN⟩ : Fin grid2.N) (0 : Fin 2) * 10000 + 10000
    omega
  | ⟨1, _⟩ =>
    show win2_2.index (⟨(i 0).val / 10000, hN⟩ : Fin grid2.N) (1 : Fin 2) * 2 ≤ (i 1).val ∧ (i 1).val < win2_2.index (⟨(i 0).val / 10000, hN⟩ : Fin grid2.N) (1 : Fin 2) * 2 + 2
    omega

/-- The output array after the region: `G2` of the two operand arrays, whole. -/
theorem arrAt2_eq (V : (c : Dev nD) → (b : Ref sig .tc) → Buf (Elt Ideal) ((c : Thread nD τ).loc b)) (c : Dev nD) :
    (dat2 (F := Ideal) V c).arrAt 2 cfg2.N = G2 (V c main_v45) (V c main_arg4) :=
  (dat2 (F := Ideal) V c).arrAt_eq_of_cover 2 _ (fun t _ => flushed2_eq V c t) cover2

/-! ## The host's `dot_general` over the whole arrays of region 2, at an index -/

/-- The host's contraction: the same axes over the whole arrays. -/
abbrev H2 := Cert.ReferenceIdeal.dot_S100000x64_S64x2_S100000x2_1_0_0_1_n_n

theorem hlhs2_0 (i : Cert.ReferenceIdeal.S100000x2.Idx) (q : H2.contr.Idx) : (H2.lhsIdx i q 0).val = (i 0).val := by
  unfold DotDims.lhsIdx
  rw [dif_neg (show ¬(0 : Fin Cert.ReferenceIdeal.S100000x64.rank) ∈ H2.lhsBatch by decide), dif_pos (show (0 : Fin Cert.ReferenceIdeal.S100000x64.rank) ∈ H2.lhsNonContracting by decide)]
  rfl
theorem hlhs2_1 (i : Cert.ReferenceIdeal.S100000x2.Idx) (q : H2.contr.Idx) : (H2.lhsIdx i q 1).val = (q ⟨0, by decide⟩).val :=
  H2.lhsIdx_val_of_single rfl i q
theorem hrhs2_0 (i : Cert.ReferenceIdeal.S100000x2.Idx) (q : H2.contr.Idx) : (H2.rhsIdx i q 0).val = (q ⟨0, by decide⟩).val :=
  H2.rhsIdx_val_of_single rfl i q
theorem hrhs2_1 (i : Cert.ReferenceIdeal.S100000x2.Idx) (q : H2.contr.Idx) : (H2.rhsIdx i q 1).val = (i 1).val := by
  unfold DotDims.rhsIdx
  rw [dif_neg (show ¬(1 : Fin Cert.ReferenceIdeal.S64x2.rank) ∈ H2.rhsBatch by decide), dif_pos (show (1 : Fin Cert.ReferenceIdeal.S64x2.rank) ∈ H2.rhsNonContracting by decide)]
  rfl

/-- At the ideal values the host's `dot_general` at an index is the sum over the contracted axis of the products:
    `G2` of its operands. -/
theorem host2_apply (x0 : (⟨Cert.ReferenceIdeal.S100000x64, .f32⟩ : BufTy).Contents (Elt Ideal)) (x1 : (⟨Cert.ReferenceIdeal.S64x2, .f32⟩ : BufTy).Contents (Elt Ideal)) (i : Cert.ReferenceIdeal.S100000x2.Idx) :
    Host.dotGeneral (F := Ideal) (φ₁ := .f32) (φ₂ := .f32) H2 none x0 x1 i
      = ∑ k : Fin 64, x0 (ValueIdx.ix2 (n0 := 100000) (n1 := 64) (i 0) k) * x1 (ValueIdx.ix2 (n0 := 64) (n1 := 2) k (i 1)) := by
  simp only [Host.dotGeneral]
  rw [Ideal.dotGeneral_apply, ← Equiv.sum_comp (ValueIdx.contrEquiv1 H2 64 rfl rfl).symm]
  refine Finset.sum_congr rfl fun k _ => ?_
  have hk := ValueIdx.contrEquiv1_symm_val H2 64 rfl rfl k
  have el : H2.lhsIdx i ((ValueIdx.contrEquiv1 H2 64 rfl rfl).symm k) = ValueIdx.ix2 (n0 := 100000) (n1 := 64) (i 0) k :=
    funext fun a => Fin.ext (by
      match a with
      | ⟨0, _⟩ => exact hlhs2_0 _ _
      | ⟨1, _⟩ => exact (hlhs2_1 _ _).trans hk)
  have er : H2.rhsIdx i ((ValueIdx.contrEquiv1 H2 64 rfl rfl).symm k) = ValueIdx.ix2 (n0 := 64) (n1 := 2) k (i 1) :=
    funext fun a => Fin.ext (by
      match a with
      | ⟨0, _⟩ => exact (hrhs2_0 _ _).trans hk
      | ⟨1, _⟩ => exact hrhs2_1 _ _)
  rw [el, er]

/-- THE OUTPUT ARRAY of region 2 after the region is the host's `dot_general` of the two operand arrays as the region
    finds them. -/
theorem final2 (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) Cert.ReferenceIdeal.dot_S100000x64_S64x2_S100000x2_1_0_0_1_n_n none (V c main_v45) (V c main_arg4) := by
  rw [arrAt2_eq]
  funext i
  exact (host2_apply (V c main_v45) (V c main_arg4) i).symm

end Cert.KernelIdeal.RegionValue

end
-- ==== Proof.RegionBias.lean ====
import proofs.«165865_j74861279969818_1_alg».proof.Proof.Gen.KernelIdeal.Frame
import proofs.«165865_j74861279969818_1_alg».proof.Proof.Gen.ReferenceIdeal
import Idealize.ShloMosaic.Lib.Pipeline.Value
import Idealize.ShloMosaic.Lib.ValueIdx
import Idealize.ShloMosaic.Lib.ValueLayout

/-!
# The two bias regions, from blocks to whole arrays

Regions 1 and 3 each walk the 100000 rows of an aggregate in 10 row blocks of 10000 and add to every row the one bias
row. At an index (r, q) region 1 leaves max (a (r, q) + b (0, q)) 0 and region 3 leaves a (r, q) + b (0, q), where a and b
are the arrays the region finds on entry. Each theorem `finalK` says the output array after the region's run is the
reference's whole-array operations applied to those entry arrays.
-/

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as a constant function. -/
private theorem hz : (![0, 0] : Fin 2 → Nat) = fun _ => 0 := funext fun a => by fin_cases a <;> rfl

/-! ## Region 1: the aggregate plus the bias row, clamped below at zero -/

/-- The reference's operations on whole arrays: the aggregate plus the bias row broadcast over the rows, then the
    maximum with the zero constant broadcast to every element. -/
abbrev H1 (a : (⟨Cert.ReferenceIdeal.S100000x64, .f32⟩ : BufTy).Contents (Elt Ideal))
    (b : (⟨Cert.ReferenceIdeal.S1x64, .f32⟩ : BufTy).Contents (Elt Ideal)) :
    (⟨Cert.ReferenceIdeal.S100000x64, .f32⟩ : BufTy).Contents (Elt Ideal) :=
  maximumf (addf a (broadcastInDim Cert.ReferenceIdeal.S100000x64 ![0, 1] Cert.ReferenceIdeal.Facts₀.bcast_S1x64_S100000x64_0_1 b))
    (broadcastInDim Cert.ReferenceIdeal.S100000x64 ![] Cert.ReferenceIdeal.Facts₀.bcast_S_S100000x64 (constant (F := Ideal) Cert.ReferenceIdeal.S_ .f32 0x00000000#32))

/-- The body's payload at an element (p, q): the block's element plus the bias row's element q, clamped at zero. -/
theorem pay1_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) (FloatOps.ofBits (F := Ideal) .f32 0x00000000#32) := by
  unfold k1_pay1
  rw [shapeCast_self x0, shapeCast_self x1]
  rw [maximumf_apply, addf_apply, broadcast_apply, broadcastTo_1b_ab_apply]

/-- The reference's operations at an element (r, q): the same expression of the whole arrays' elements. -/
theorem host1_apply (a : (⟨Cert.ReferenceIdeal.S100000x64, .f32⟩ : BufTy).Contents (Elt Ideal))
    (b : (⟨Cert.ReferenceIdeal.S1x64, .f32⟩ : BufTy).Contents (Elt Ideal)) (r : Fin 100000) (q : Fin 64) :
    H1 a b (ix2 r q) = max (a (ix2 r q) + b (ix2 (0 : Fin 1) q)) (FloatOps.ofBits (F := Ideal) .f32 0x00000000#32) := by
  show max (a (ix2 r q) + broadcastInDim Cert.ReferenceIdeal.S100000x64 ![0, 1] Cert.ReferenceIdeal.Facts₀.bcast_S1x64_S100000x64_0_1 b (ix2 r q))
      (broadcastInDim Cert.ReferenceIdeal.S100000x64 ![] Cert.ReferenceIdeal.Facts₀.bcast_S_S100000x64 (constant (F := Ideal) Cert.ReferenceIdeal.S_ .f32 0x00000000#32) (ix2 r q)) = _
  rw [broadcastInDim_apply ![0, 1] Cert.ReferenceIdeal.Facts₀.bcast_S1x64_S100000x64_0_1 b (ix2 r q) (ix2 (0 : Fin 1) q) (fun ax => match ax with
    | ⟨0, _⟩ => by show 0 = if (1 : Nat) = 1 then 0 else r.val; rw [if_pos rfl]
    | ⟨1, _⟩ => by show q.val = if (64 : Nat) = 1 then 0 else q.val; rw [if_neg (by decide)])]
  rw [broadcastInDim_apply ![] Cert.ReferenceIdeal.Facts₀.bcast_S_S100000x64 (constant (F := Ideal) Cert.ReferenceIdeal.S_ .f32 0x00000000#32) (ix2 r q) ix0 (fun ax => ax.elim0)]
  rfl

/-- One element of a block against one element of the array: when the block's element is the array's and the bias
    rows agree, the payload there is the reference's value there. -/
theorem point1 (a : (⟨Cert.ReferenceIdeal.S100000x64, .f32⟩ : BufTy).Contents (Elt Ideal))
    (b : (⟨Cert.ReferenceIdeal.S1x64, .f32⟩ : BufTy).Contents (Elt Ideal))
    (x0 : Vec Ideal S10000x64 .f32) (x1 : Vec Ideal S1x64 .f32) (j : S10000x64.Idx) (i : Cert.ReferenceIdeal.S100000x64.Idx)
    (h0 : x0 j = a i) (h1 : ∀ q : Fin 64, x1 (ix2 (0 : Fin 1) q) = b (ix2 (0 : Fin 1) q)) (hq : (j 1).val = (i 1).val) :
    k1_pay1 x0 x1 j = H1 a b i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q = q' := Fin.ext hq
  rw [pay1_apply, host1_apply, h0, h1]

/-- The printed index maps, decided over the grid: the aggregate's block moves with the output's, the bias row's block
    is the whole row at every point, and the output's block at point t is row block t. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the reference's value of the arrays as the region finds them. -/
theorem flushed1_eq (c : Dev nD) (t : Fin cfg1.N) :
    (dat1 V c).flushed 2 t = ((cfg1.win 2).blk t).view.read (Elt Ideal) (H1 (V c main_v43) (V c main_v44)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts1 t
  funext j
  show k1_pay1 (iblk1 V c 0 t) (iblk1 V c 1 t) j = H1 (V c main_v43) (V c main_v44) (((cfg1.win 2).blk t).view.emb j)
  refine point1 _ _ _ _ j _ ?_ ?_ ?_
  · show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · intro q
    show V c main_v44 (((cfg1.win 1).blk t).view.emb (ix2 (0 : Fin 1) q)) = V c main_v44 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  · show (j 1).val = win1_2.index t (1 : Fin 2) * 64 + 1 * (j 1).val
    omega

/-- An index of the array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every index of the array is in some point's block: row r is in row block r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := by show (i 0).val / 10000 < grid1.N; rw [N_1]; omega
  refine ⟨⟨(i 0).val / 10000, hN⟩, flush1_2 _, ?_⟩
  rw [mem_blk1]
  obtain ⟨e0, e1, e2, e3, e4, e5⟩ := idx_facts1 ⟨(i 0).val / 10000, hN⟩
  have e4' : win1_2.index ⟨(i 0).val / 10000, hN⟩ (0 : Fin 2) = (i 0).val / 10000 := e4
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 64 ≤ (i 1).val ∧ (i 1).val < win1_2.index ⟨(i 0).val / 10000, hN⟩ (1 : Fin 2) * 64 + 64; omega

/-- The output array after region 1's run: the reference's value of the arrays the region found. -/
theorem final1 (c : Dev nD) :
    (dat1 (F := Ideal) V c).arrAt 2 cfg1.N
      = maximumf (addf (V c main_v43) (broadcastInDim Cert.ReferenceIdeal.S100000x64 ![0, 1] Cert.ReferenceIdeal.Facts₀.bcast_S1x64_S100000x64_0_1 (V c main_v44)))
          (broadcastInDim Cert.ReferenceIdeal.S100000x64 ![] Cert.ReferenceIdeal.Facts₀.bcast_S_S100000x64 (constant (F := Ideal) Cert.ReferenceIdeal.S_ .f32 0x00000000#32)) :=
  (dat1 V c).arrAt_eq_of_cover 2 (H1 (V c main_v43) (V c main_v44)) (fun t _ => flushed1_eq V c t) cover1

/-! ## Region 3: the aggregate plus the bias row -/

/-- The reference's operations on whole arrays: the aggregate plus the bias row broadcast over the rows. -/
abbrev H3 (a : (⟨Cert.ReferenceIdeal.S100000x2, .f32⟩ : BufTy).Contents (Elt Ideal))
    (b : (⟨Cert.ReferenceIdeal.S1x2, .f32⟩ : BufTy).Contents (Elt Ideal)) :
    (⟨Cert.ReferenceIdeal.S100000x2, .f32⟩ : BufTy).Contents (Elt Ideal) :=
  addf (F := Ideal) (φ := .f32) a (broadcastInDim Cert.ReferenceIdeal.S100000x2 ![0, 1] Cert.ReferenceIdeal.Facts₀.bcast_S1x2_S100000x2_0_1 b)

/-- The body's payload at an element (p, q): the block's element plus the bias row's element q. -/
theorem pay3_apply (x0 : Vec Ideal S10000x2 .f32) (x1 : Vec Ideal S1x2 .f32) (p : Fin 10000) (q : Fin 2) :
    k3_pay1 x0 x1 (ix2 p q) = x0 (ix2 p q) + x1 (ix2 (0 : Fin 1) q) := by
  unfold k3_pay1
  rw [shapeCast_self x0, shapeCast_self x1]
  rw [addf_apply, broadcastTo_1b_ab_apply]

/-- The reference's operations at an element (r, q): the same expression of the whole arrays' elements. -/
theorem host3_apply (a : (⟨Cert.ReferenceIdeal.S100000x2, .f32⟩ : BufTy).Contents (Elt Ideal))
    (b : (⟨Cert.ReferenceIdeal.S1x2, .f32⟩ : BufTy).Contents (Elt Ideal)) (r : Fin 100000) (q : Fin 2) :
    H3 a b (ix2 r q) = a (ix2 r q) + b (ix2 (0 : Fin 1) q) := by
  show a (ix2 r q) + broadcastInDim Cert.ReferenceIdeal.S100000x2 ![0, 1] Cert.ReferenceIdeal.Facts₀.bcast_S1x2_S100000x2_0_1 b (ix2 r q) = _
  rw [broadcastInDim_apply ![0, 1] Cert.ReferenceIdeal.Facts₀.bcast_S1x2_S100000x2_0_1 b (ix2 r q) (ix2 (0 : Fin 1) q) (fun ax => match ax with
    | ⟨0, _⟩ => by show 0 = if (1 : Nat) = 1 then 0 else r.val; rw [if_pos rfl]
    | ⟨1, _⟩ => by show q.val = if (2 : Nat) = 1 then 0 else q.val; rw [if_neg (by decide)])]

/-- One element of a block against one element of the array: when the block's element is the array's and the bias
    rows agree, the payload there is the reference's value there. -/
theorem point3 (a : (⟨Cert.ReferenceIdeal.S100000x2, .f32⟩ : BufTy).Contents (Elt Ideal))
    (b : (⟨Cert.ReferenceIdeal.S1x2, .f32⟩ : BufTy).Contents (Elt Ideal))
    (x0 : Vec Ideal S10000x2 .f32) (x1 : Vec Ideal S1x2 .f32) (j : S10000x2.Idx) (i : Cert.ReferenceIdeal.S100000x2.Idx)
    (h0 : x0 j = a i) (h1 : ∀ q : Fin 2, x1 (ix2 (0 : Fin 1) q) = b (ix2 (0 : Fin 1) q)) (hq : (j 1).val = (i 1).val) :
    k3_pay1 x0 x1 j = H3 a b i := by
  obtain ⟨p, q, rfl⟩ : ∃ (p : Fin 10000) (q : Fin 2), j = ix2 p q := ⟨j 0, j 1, eq_ix2 j⟩
  obtain ⟨r, q', rfl⟩ : ∃ (r : Fin 100000) (q' : Fin 2), i = ix2 r q' := ⟨i 0, i 1, eq_ix2 i⟩
  obtain rfl : q = q' := Fin.ext hq
  rw [pay3_apply, host3_apply, h0, h1]

/-- The printed index maps, decided over the grid: the aggregate's block moves with the output's, the bias row's block
    is the whole row at every point, and the output's block at point t is row block t. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the reference's value of the arrays as the region finds them. -/
theorem flushed3_eq (c : Dev nD) (t : Fin cfg3.N) :
    (dat3 V c).flushed 2 t = ((cfg3.win 2).blk t).view.read (Elt Ideal) (H3 (V c main_v59) (V c main_v60)) := by
  show (cfg3.win 2).cut (grid3.coords t) ((dat3 V c).after 2 t) = _
  rw [after3_2]
  unfold out3_2
  rw [View.canon_unit_zero hz]
  simp only [View.ld_unit_zero (S := S10000x2) hz, View.ld_unit_zero (S := S1x2) hz]
  obtain ⟨e0, e1, e2, e3, e4, e5⟩ := idx_facts3 t
  funext j
  show k3_pay1 (iblk3 V c 0 t) (iblk3 V c 1 t) j = H3 (V c main_v59) (V c main_v60) (((cfg3.win 2).blk t).view.emb j)
  refine point3 _ _ _ _ j _ ?_ ?_ ?_
  · show V c main_v59 (((cfg3.win 0).blk t).view.emb j) = V c main_v59 (((cfg3.win 2).blk t).view.emb j)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 2 + 1 * (j 1).val = win3_2.index t (1 : Fin 2) * 2 + 1 * (j 1).val; omega
  · intro q
    show V c main_v60 (((cfg3.win 1).blk t).view.emb (ix2 (0 : Fin 1) q)) = V c main_v60 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 2 + 1 * q.val = q.val; omega
  · show (j 1).val = win3_2.index t (1 : Fin 2) * 2 + 1 * (j 1).val
    omega

/-- An index of the array is in point t's block iff each coordinate is in the block's range on its axis. -/
theorem mem_blk3 (t : Fin cfg3.N) (i : S100000x2.Idx) :
    i ∈ ((cfg3.win 2).blk t).view.set ↔ ∀ a : Fin 2, win3_2.index t a * S10000x2.size a ≤ (i a).val ∧ (i a).val < win3_2.index t a * S10000x2.size a + S10000x2.size a := by
  show i ∈ ((View.whole main_v61).slice (win3_2.rect t)).set ↔ _
  rw [View.set_slice_whole, Rect.mem_set_unit]
  exact Iff.rfl

/-- Every index of the array is in some point's block: row r is in row block r / 10000. -/
theorem cover3 (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  have hN : (i 0).val / 10000 < cfg3.N := by show (i 0).val / 10000 < grid3.N; rw [N_3]; omega
  refine ⟨⟨(i 0).val / 10000, hN⟩, flush3_2 _, ?_⟩
  rw [mem_blk3]
  obtain ⟨e0, e1, e2, e3, e4, e5⟩ := idx_facts3 ⟨(i 0).val / 10000, hN⟩
  have e4' : win3_2.index ⟨(i 0).val / 10000, hN⟩ (0 : Fin 2) = (i 0).val / 10000 := e4
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 2 ≤ (i 1).val ∧ (i 1).val < win3_2.index ⟨(i 0).val / 10000, hN⟩ (1 : Fin 2) * 2 + 2; omega

/-- The output array after region 3's run: the reference's value of the arrays the region found. -/
theorem final3 (c : Dev nD) :
    (dat3 (F := Ideal) V c).arrAt 2 cfg3.N
      = addf (F := Ideal) (φ := .f32) (V c main_v59) (broadcastInDim Cert.ReferenceIdeal.S100000x2 ![0, 1] Cert.ReferenceIdeal.Facts₀.bcast_S1x2_S100000x2_0_1 (V c main_v60)) :=
  (dat3 V c).arrAt_eq_of_cover 2 (H3 (V c main_v59) (V c main_v60)) (fun t _ => flushed3_eq V c t) cover3

end Cert.KernelIdeal.RegionValue

end
-- ==== Proof.KernelValue.lean ====
/-
  The idealized kernel's result as the network function of its arguments. Region by region: region 0's output array is
  the whole matrix product x · W1 (its blocks tile the rows); the host stretch turns it into the first propagation step;
  region 1 adds the bias row and takes the maximum with 0; region 2 is the product with W2; the last host stretch the
  second propagation step; region 3 adds the second bias row. The edge lists and norms are computed once, before region
  0, and pass through every region unchanged.
-/
import proofs.«165865_j74861279969818_1_alg».proof.Proof.KernelHost
import proofs.«165865_j74861279969818_1_alg».proof.Proof.RegionMatmul
import proofs.«165865_j74861279969818_1_alg».proof.Proof.RegionBias

set_option maxRecDepth 16384

noncomputable section

namespace Cert.KernelIdeal.NetValue

open Cert.KernelIdeal Cert.KernelIdeal.Gen Cert.KernelIdeal.HostValue Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The edge data and the arguments at each boundary -/

theorem rows4 : V4 m ρ c main_v5 = Cert.GcnSpec.rowFull (F := Ideal) (m ((c : Thread nD τ).loc main_arg1)) :=
  (V4_kept m ρ c main_v5 (by decide)).trans (V3_v5 m ρ c)
theorem cols4 : V4 m ρ c main_v6 = Cert.GcnSpec.colFull (F := Ideal) (m ((c : Thread nD τ).loc main_arg1)) :=
  (V4_kept m ρ c main_v6 (by decide)).trans (V3_v6 m ρ c)
theorem norm4 : V4 m ρ c main_v29 = Cert.GcnSpec.norm (F := Ideal) (m ((c : Thread nD τ).loc main_arg1)) :=
  (V4_kept m ρ c main_v29 (by decide)).trans (V3_v29 m ρ c)
theorem bias1_4 : V4 m ρ c main_arg3 = (m ((c : Thread nD τ).loc main_arg3)) :=
  (V4_kept m ρ c main_arg3 (by decide)).trans (V3_arg3 m ρ c)
theorem w2_6 : V6 m ρ c main_arg4 = (m ((c : Thread nD τ).loc main_arg4)) :=
  (V6_kept m ρ c main_arg4 (by decide)).trans ((V5_arg4 m ρ c).trans ((V4_kept m ρ c main_arg4 (by decide)).trans (V3_arg4 m ρ c)))
theorem rows7 : V7 m ρ c main_v5 = Cert.GcnSpec.rowFull (F := Ideal) (m ((c : Thread nD τ).loc main_arg1)) :=
  (V7_kept m ρ c main_v5 (by decide)).trans ((V6_kept m ρ c main_v5 (by decide)).trans ((V5_v5 m ρ c).trans (rows4 m ρ c)))
theorem cols7 : V7 m ρ c main_v6 = Cert.GcnSpec.colFull (F := Ideal) (m ((c : Thread nD τ).loc main_arg1)) :=
  (V7_kept m ρ c main_v6 (by decide)).trans ((V6_kept m ρ c main_v6 (by decide)).trans ((V5_v6 m ρ c).trans (cols4 m ρ c)))
theorem norm7 : V7 m ρ c main_v29 = Cert.GcnSpec.norm (F := Ideal) (m ((c : Thread nD τ).loc main_arg1)) :=
  (V7_kept m ρ c main_v29 (by decide)).trans ((V6_kept m ρ c main_v29 (by decide)).trans ((V5_v29 m ρ c).trans (norm4 m ρ c)))
theorem bias2_7 : V7 m ρ c main_arg5 = (m ((c : Thread nD τ).loc main_arg5)) :=
  (V7_kept m ρ c main_arg5 (by decide)).trans ((V6_kept m ρ c main_arg5 (by decide)).trans ((V5_arg5 m ρ c).trans
    ((V4_kept m ρ c main_arg5 (by decide)).trans (V3_arg5 m ρ c))))

/-! ## The regions' output arrays -/

/-- Region 0 leaves x · W1. -/
theorem product1 : V4 m ρ c main_v30
    = Host.dotGeneral (F := Ideal) (φ₁ := .f32) (φ₂ := .f32) Cert.ReferenceIdeal.dot_S100000x64_S64x64_S100000x64_1_0_0_1_n_n none (m ((c : Thread nD τ).loc main_arg0)) (m ((c : Thread nD τ).loc main_arg2)) := by
  refine (W4_arr m ρ c 2).trans ((final0 (V3 m ρ) c).trans ?_)
  rw [V3_arg0, V3_arg2]

/-- Region 1 leaves the first layer's output. -/
theorem hidden_eq : V6 m ρ c main_v45
    = Cert.GcnSpec.hidden (F := Ideal) (Cert.GcnSpec.rowFull (F := Ideal) (m ((c : Thread nD τ).loc main_arg1))) (Cert.GcnSpec.colFull (F := Ideal) (m ((c : Thread nD τ).loc main_arg1)))
        (Cert.GcnSpec.norm (F := Ideal) (m ((c : Thread nD τ).loc main_arg1))) (m ((c : Thread nD τ).loc main_arg0)) (m ((c : Thread nD τ).loc main_arg2))
        (broadcastInDim Cert.ReferenceIdeal.S1x64 ![1] Cert.ReferenceIdeal.Gen.bcast_S64_S1x64_1 (m ((c : Thread nD τ).loc main_arg3))) := by
  refine (W6_arr m ρ c 2).trans ((final1 (V5 m ρ) c).trans ?_)
  rw [V5_v43, V5_v44, rows4, cols4, norm4, product1, bias1_4, row64]
  rfl

/-- Region 2 leaves hidden · W2. -/
theorem product2 : V7 m ρ c main_v46
    = Host.dotGeneral (F := Ideal) (φ₁ := .f32) (φ₂ := .f32) Cert.ReferenceIdeal.dot_S100000x64_S64x2_S100000x2_1_0_0_1_n_n none
        (Cert.GcnSpec.hidden (F := Ideal) (Cert.GcnSpec.rowFull (F := Ideal) (m ((c : Thread nD τ).loc main_arg1))) (Cert.GcnSpec.colFull (F := Ideal) (m ((c : Thread nD τ).loc main_arg1)))
          (Cert.GcnSpec.norm (F := Ideal) (m ((c : Thread nD τ).loc main_arg1))) (m ((c : Thread nD τ).loc main_arg0)) (m ((c : Thread nD τ).loc main_arg2))
          (broadcastInDim Cert.ReferenceIdeal.S1x64 ![1] Cert.ReferenceIdeal.Gen.bcast_S64_S1x64_1 (m ((c : Thread nD τ).loc main_arg3))))
        (m ((c : Thread nD τ).loc main_arg4)) := by
  refine (W7_arr m ρ c 2).trans ((final2 (V6 m ρ) c).trans ?_)
  rw [hidden_eq, w2_6]

/-- Region 3 leaves the network's output: the result buffer after the run. -/
theorem result_eq : W9 m ρ c (Proc.devRef .tc main_v61)
    = Cert.GcnSpec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((final3 (V8 m ρ) c).trans ?_)
  rw [V8_v59, V8_v60, rows7, cols7, norm7, product2, bias2_7, row2]
  rfl

end Cert.KernelIdeal.NetValue

end
-- ==== Proof.RefValue.lean ====
/-
  The reference program's result term is the network function `GcnSpec.result` of the six argument arrays: the
  reference computes the edge lists, degrees and norms once per layer, and both copies are the same operations of
  the edge-index argument.
-/
import proofs.«165865_j74861279969818_1_alg».proof.Proof.RefRun
import proofs.«165865_j74861279969818_1_alg».proof.Proof.GcnSpec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The composed term of the reference's 119 operations is `result` of the arguments. -/
theorem res_eq (m : (ℓ : Loc nD τ sig) → Buf (Elt F) ℓ) (c : Dev nD) :
    Cert.ReferenceIdeal.ValueP.res_main_v90 m c
      = Cert.GcnSpec.result (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90 Cert.GcnSpec.result Cert.GcnSpec.output Cert.GcnSpec.hidden Cert.GcnSpec.agg2 Cert.GcnSpec.agg64
    Cert.GcnSpec.norm Cert.GcnSpec.dinv Cert.GcnSpec.deg Cert.GcnSpec.wrap Cert.GcnSpec.rowFull Cert.GcnSpec.colFull
  rfl

end Cert.ReferenceIdeal.RefValue

end
-- ==== Proof.lean ====
/-
  A two-layer graph convolution with symmetric normalisation over 100000 nodes and 1.6 million edges: per layer a dense
  product with a weight matrix, then for every edge (self loops appended) the source's row, scaled by
  deg(source)^(-1/2) · deg(target)^(-1/2), added into the target's row, then a bias; a relu between the layers. The
  kernel's program does the two products and the two bias steps as tiled regions over blocks of 10000 rows and the
  edge-wise gather / scale / scatter-add as host operations in between; the reference does everything as host operations
  and computes the degrees and norms once per layer. At the ideal instance both results are the ONE function
  `GcnSpec.result` of the six arguments: a tiled product into a zero accumulator is the whole product (a change of float
  format being the identity), a bias row added block by block is the broadcast sum, and the host operations around them
  are the same operations of the same arrays on both sides. No law that needs finite entries is used.
-/
import proofs.«165865_j74861279969818_1_alg».proof.Defs
import proofs.«165865_j74861279969818_1_alg».proof.Proof.Gen.Kernel
import proofs.«165865_j74861279969818_1_alg».proof.Proof.Gen.Kernel.Skeleton
import proofs.«165865_j74861279969818_1_alg».proof.Proof.Gen.Kernel.Launch
import proofs.«165865_j74861279969818_1_alg».proof.Proof.Gen.Kernel.Points
import proofs.«165865_j74861279969818_1_alg».proof.Proof.Gen.Kernel.Frame
import proofs.«165865_j74861279969818_1_alg».proof.Proof.Gen.KernelIdeal
import proofs.«165865_j74861279969818_1_alg».proof.Proof.Gen.KernelIdeal.Skeleton
import proofs.«165865_j74861279969818_1_alg».proof.Proof.Gen.KernelIdeal.Launch
import proofs.«165865_j74861279969818_1_alg».proof.Proof.Gen.KernelIdeal.Points
import proofs.«165865_j74861279969818_1_alg».proof.Proof.Gen.KernelIdeal.Frame
import proofs.«165865_j74861279969818_1_alg».proof.Proof.Gen.ReferenceIdeal
import proofs.«165865_j74861279969818_1_alg».proof.Proof.Gen.Pre_finite_inputs
import proofs.«165865_j74861279969818_1_alg».proof.Proof.KernelRun
import proofs.«165865_j74861279969818_1_alg».proof.Proof.KernelValue
import proofs.«165865_j74861279969818_1_alg».proof.Proof.RefRun
import proofs.«165865_j74861279969818_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end with the network function of the (agreeing) arguments in their result buffers. -/
theorem algebraic : Cert.algebraic_KernelIdeal_ReferenceIdeal := by
  intro m ρ m' ρ' _ hagree
  refine ⟨fun c => Cert.GcnSpec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.NetValue.result_eq m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
